-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048 : Shape := ⟨2, ![2, 2048]⟩
abbrev S1024x50257 : Shape := ⟨2, ![1024, 50257]⟩
abbrev S_ : Shape := ⟨0, ![]⟩

class Facts : Prop where
  bcast_S_S1024x50257 : S_.BroadcastsInDim S1024x50257 (![] : Fin 0 → Fin S1024x50257.rank)
  reducesTo_S1024x50257_S_d0_1 : S1024x50257.ReducesTo [0, 1] S_
  h_S_ : 0 < S_.numel

variable [Facts]

def fn {F : FTy → Type} [FloatOps F] (main_arg0 : IVec S2x2048 32) (main_arg1 : FVec F S1024x50257 .f32) : IVec S_ 1 :=
  let main_v0 : FVec F S1024x50257 .f32 := Host.absf main_arg1
  let main_cst : FVec F S_ .f32 := constant S_ .f32 0x7F800000#32
  let main_v1 : FVec F S1024x50257 .f32 := broadcastInDim S1024x50257 ![] bcast_S_S1024x50257 main_cst
  let main_v2 : IVec S1024x50257 1 := cmpf .olt main_v0 main_v1
  let main_c : IVec S_ 1 := constantI S_ 1 1#1
  let main_v3 : IVec S_ 1 := (fun x v => Host.reduce IntOp.andi x v reducesTo_S1024x50257_S_d0_1 h_S_) main_v2 main_c
  main_v3
-- ==== Kernel.lean ====
abbrev S2x2048 : Shape := ⟨2, ![2, 2048]⟩
abbrev S1024x50257 : Shape := ⟨2, ![1024, 50257]⟩
abbrev S4096 : Shape := ⟨1, ![4096]⟩
abbrev S4096x1 : Shape := ⟨2, ![4096, 1]⟩
abbrev S_ : Shape := ⟨0, ![]⟩
abbrev S1024x50688 : Shape := ⟨2, ![1024, 50688]⟩
abbrev S4096x1024 : Shape := ⟨2, ![4096, 1024]⟩
abbrev S2048x1 : Shape := ⟨2, ![2048, 1]⟩
abbrev S1024x512 : Shape := ⟨2, ![1024, 512]⟩
abbrev S2048x1024 : Shape := ⟨2, ![2048, 1024]⟩
abbrev S2048x512 : Shape := ⟨2, ![2048, 512]⟩
abbrev S512x1024 : Shape := ⟨2, ![512, 1024]⟩
abbrev S2x2048x1024 : Shape := ⟨3, ![2, 2048, 1024]⟩

abbrev nBuf : Space → Nat
  | .hbm => 9
  | .vmem => 6
  | .smem => 0
  | _ => 0

abbrev bufTy : (tb : Table) → Fin (tcTables nBuf tb) → BufTy
  | .hbm, ⟨0, _⟩ => ⟨S2x2048, .i32⟩
  | .hbm, ⟨1, _⟩ => ⟨S1024x50257, .f32⟩
  | .hbm, ⟨2, _⟩ => ⟨S4096, .i32⟩
  | .hbm, ⟨3, _⟩ => ⟨S4096x1, .i32⟩
  | .hbm, ⟨4, _⟩ => ⟨S_, .i32⟩
  | .hbm, ⟨5, _⟩ => ⟨S_, .f32⟩
  | .hbm, ⟨6, _⟩ => ⟨S1024x50688, .f32⟩
  | .hbm, ⟨7, _⟩ => ⟨S4096x1024, .f32⟩
  | .hbm, ⟨8, _⟩ => ⟨S2x2048x1024, .f32⟩
  | .local _ .vmem, ⟨0, _⟩ => ⟨S2048x1, .i32⟩
  | .local _ .vmem, ⟨1, _⟩ => ⟨S2048x1, .i32⟩
  | .local _ .vmem, ⟨2, _⟩ => ⟨S1024x512, .f32⟩
  | .local _ .vmem, ⟨3, _⟩ => ⟨S1024x512, .f32⟩
  | .local _ .vmem, ⟨4, _⟩ => ⟨S2048x1024, .f32⟩
  | .local _ .vmem, ⟨5, _⟩ => ⟨S2048x1024, .f32⟩
  | _, _ => ⟨S2x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 99], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S2x2048_S4096 : S2x2048.ShapeCasts S4096
  shapeCasts_S4096_S4096x1 : S4096.ShapeCasts S4096x1
  pads_S1024x50257_S1024x50688_000_04310 : S1024x50257.Pads (![0, 0] : Fin 2 → Nat) ![0, 431] ![0, 0] S1024x50688
  h_S_ : 0 < S_.numel
  iota_S2048x512_d1_w32 : S2048x512.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  natLt_1_32 : 1 < 32
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S4096x1024_S2x2048x1024 : S4096x1024.ShapeCasts S2x2048x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S4096x1.size a
  hwx0_0 : ∀ i : grid0.Coords, EltTy.bits .i32 = 32 ∨ (Rect.block (s := S4096x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x50688.size a
  hwx0_1 : ∀ i : grid0.Coords, EltTy.bits .f32 = 32 ∨ (Rect.block (s := S1024x50688) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S4096x1024.size a
  hwx0_2 : ∀ i : grid0.Coords, EltTy.bits .f32 = 32 ∨ (Rect.block (s := S4096x1024) S2048x1024.size (cc0_transform_2 i) (hinb0_2 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v1) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x2048 : Shape := ⟨2, ![2, 2048]⟩
abbrev S1024x50257 : Shape := ⟨2, ![1024, 50257]⟩
abbrev S2x2048x1 : Shape := ⟨3, ![2, 2048, 1]⟩
abbrev S1x1x50257 : Shape := ⟨3, ![1, 1, 50257]⟩
abbrev S2x2048x50257 : Shape := ⟨3, ![2, 2048, 50257]⟩
abbrev S2x2048x1024 : Shape := ⟨3, ![2, 2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048, .i32⟩
  | .hbm, ⟨1, _⟩ => ⟨S1024x50257, .f32⟩
  | .hbm, ⟨2, _⟩ => ⟨S2x2048x1, .i32⟩
  | .hbm, ⟨3, _⟩ => ⟨S1x1x50257, .i32⟩
  | .hbm, ⟨4, _⟩ => ⟨S2x2048x50257, .i32⟩
  | .hbm, ⟨5, _⟩ => ⟨S2x2048x50257, .i32⟩
  | .hbm, ⟨6, _⟩ => ⟨S2x2048x50257, .i1⟩
  | .hbm, ⟨7, _⟩ => ⟨S2x2048x50257, .f32⟩
  | .hbm, ⟨8, _⟩ => ⟨S2x2048x1024, .f32⟩
  | _, _ => ⟨S2x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩

abbrev nD : Nat := 1
abbrev τ : Topo := Topo.v7x

variable {F : FTy → Type} [FloatOps F]

class Facts₀ : Prop where
  bcast_S2x2048_S2x2048x1_0_1 : S2x2048.BroadcastsInDim S2x2048x1 (![0, 1] : Fin 2 → Fin S2x2048x1.rank)
  bcast_S2x2048x1_S2x2048x50257_0_1_2 : S2x2048x1.BroadcastsInDim S2x2048x50257 (![0, 1, 2] : Fin 3 → Fin S2x2048x50257.rank)
  bcast_S1x1x50257_S2x2048x50257_0_1_2 : S1x1x50257.BroadcastsInDim S2x2048x50257 (![0, 1, 2] : Fin 3 → Fin S2x2048x50257.rank)
  dot_S2x2048x50257_S1024x50257_S2x2048x1024_2_1_01_0_n_n_wf : DotDims.WF S2x2048x50257 S1024x50257 S2x2048x1024 [2] [1] [0, 1] [0] [] []

variable [Facts₀]

def dot_S2x2048x50257_S1024x50257_S2x2048x1024_2_1_01_0_n_n : DotDims S2x2048x50257 S1024x50257 S2x2048x1024 where
  lhsContracting := [2]
  rhsContracting := [1]
  lhsNonContracting := [0, 1]
  rhsNonContracting := [0]
  lhsBatch := []
  rhsBatch := []
  wf := dot_S2x2048x50257_S1024x50257_S2x2048x1024_2_1_01_0_n_n_wf

class Facts : Prop extends Facts₀ where

variable [Facts]
-- ==== Proof.Pieces.lean ====
/-
  What one grid point leaves in the output block.

  The body adds the product of this point's one-hot tile and weight tile to the output block it finds. At the first
  vocabulary tile of a row block it first overwrites the block with zeros and reads those back, so the block it leaves
  is the payload over the zero block; at every later tile it is the payload over what the point before left.
-/
import proofs.«104713_j28930899705943_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later vocabulary tile: the block the point finds plus this tile's product. -/
theorem out_later (c : Dev nD) (i : grid0.Coords) (a2 : Memref sig .tc .vmem S2048x1 .i32) (h2 : a2.IsWhole)
    (a3 : Memref sig .tc .vmem S1024x512 .f32) (h3 : a3.IsWhole) (a4 : Memref sig .tc .vmem S2048x1024 .f32) (h4 : a4.IsWhole)
    (hc : ¬cond0_0 i) (x0 : Vec F S2048x1 .i32) (x1 : Vec F S1024x512 .f32) (xo : Vec F S2048x1024 .f32) :
    out0_B_2 c i a2 h2 a3 h3 a4 h4 hc x0 x1 xo = k0_pay2 i x0 x1 xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread, View.ld_unit_zero (S := S2048x1) hz,
    View.ld_unit_zero (S := S1024x512) hz, View.ld_unit_zero (S := S2048x1024) hz]

/-- The first vocabulary tile: the zero block plus this tile's product. -/
theorem out_first (c : Dev nD) (i : grid0.Coords) (a2 : Memref sig .tc .vmem S2048x1 .i32) (h2 : a2.IsWhole)
    (a3 : Memref sig .tc .vmem S1024x512 .f32) (h3 : a3.IsWhole) (a4 : Memref sig .tc .vmem S2048x1024 .f32) (h4 : a4.IsWhole)
    (hc : cond0_0 i) (x0 : Vec F S2048x1 .i32) (x1 : Vec F S1024x512 .f32) :
    out0_A_2 c i a2 h2 a3 h3 a4 h4 hc x0 x1 = k0_pay2 i x0 x1 k0_pay1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S2048x1024) hz, View.readCov_unit_zero (S := S2048x1024) _ hz]
  simp only [View.readAt_eq_ld, h2.read_unread, h3.read_unread, View.ld_unit_zero (S := S2048x1) hz,
    View.ld_unit_zero (S := S1024x512) hz, View.ld_unit_zero (S := S2048x1024) hz]

end Cert.KernelIdeal.Pieces

end
-- ==== Proof.LibProductAt.lean ====
/-
  A matrix product read at an index.

  Dimension numbers of a product [A, K] × [K, B] → [A, B] that contract the left factor's axis 1 with the right factor's
  axis 0, with no batch axis, index the two factors at the result index (p, q) and the contraction index k by (p, k) and
  (k, q). So any sum over the contraction index — a product into a zero accumulator, a host dot_general — is the sum
  over k < K of l (p, k) · r (k, q), and in particular reads only row p of the left factor and column q of the right one.
  General: nothing here depends on a particular program. An instance supplies the two kept coordinates (`hl0`, `hr1`:
  each is `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.ProductAt

open Idealize.ShloMosaic

/-- The index (p, q) of a two-axis shape, from the two numbers and their bounds. -/
abbrev at2 {n0 n1 : Nat} (p : Nat) (hp : p < n0) (q : Nat) (hq : q < n1) : (⟨2, ![n0, n1]⟩ : Shape).Idx := fun a => match a with
  | ⟨0, _⟩ => ⟨p, hp⟩
  | ⟨1, _⟩ => ⟨q, hq⟩

/-- Equal coordinates give the same index. -/
theorem at2_congr {n0 n1 : Nat} {p p' q q' : Nat} (hp : p < n0) (hp' : p' < n0) (hq : q < n1) (hq' : q' < n1)
    (ep : p = p') (eq : q = q') : (at2 p hp q hq : (⟨2, ![n0, n1]⟩ : Shape).Idx) = at2 p' hp' q' hq' := by
  subst ep; subst eq; rfl

/-- Every index of a two-axis shape is the index of its two coordinates. -/
theorem eq_at2 {n0 n1 : Nat} (j : (⟨2, ![n0, n1]⟩ : Shape).Idx) :
    j = at2 (j 0).val (ValueIdx.idx2_lt0 j) (j 1).val (ValueIdx.idx2_lt1 j) := by
  funext a; match a with | ⟨0, _⟩ => rfl | ⟨1, _⟩ => rfl

/-- THE SUM, RE-INDEXED. Dimension numbers that contract the left factor's axis 1 with the right factor's axis 0 and
    keep the left factor's axis 0 and the right factor's axis 1 as the result's rows and columns (`hl0`, `hr1`): the sum
    over the contraction index is the sum over k < K of l (p, k) · r (k, q) at the result index (p, q). -/
theorem product_sum_eq {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (j : (⟨2, ![A, B]⟩ : Shape).Idx) :
    ∑ q : d.contr.Idx, l (d.lhsIdx j q) * r (d.rhsIdx j q)
      = ∑ k : Fin K, l (at2 (j 0).val (ValueIdx.idx2_lt0 j) k.val k.isLt) * r (at2 k.val k.isLt (j 1).val (ValueIdx.idx2_lt1 j)) := by
  rw [← Equiv.sum_comp (ValueIdx.contrEquiv1 d K hr hs).symm]
  refine Finset.sum_congr rfl fun k _ => ?_
  have hk := ValueIdx.contrEquiv1_symm_val d K hr hs k
  have el : d.lhsIdx j ((ValueIdx.contrEquiv1 d K hr hs).symm k) = at2 (j 0).val (ValueIdx.idx2_lt0 j) k.val k.isLt :=
    funext fun a => Fin.ext (by
      match a with
      | ⟨0, _⟩ => exact hl0 j _
      | ⟨1, _⟩ => exact (d.lhsIdx_val_of_single hlc j _).trans hk)
  have er : d.rhsIdx j ((ValueIdx.contrEquiv1 d K hr hs).symm k) = at2 k.val k.isLt (j 1).val (ValueIdx.idx2_lt1 j) :=
    funext fun a => Fin.ext (by
      match a with
      | ⟨0, _⟩ => exact (d.rhsIdx_val_of_single hrc j _).trans hk
      | ⟨1, _⟩ => exact hr1 j _)
  rw [el, er]

end Cert.ProductAt

end
-- ==== Proof.LibBlockSum.lean ====
/-
  Finite sums cut into blocks, over any additive commutative monoid. A sum over the first `n · q` naturals is the sum
  over `n` consecutive blocks of `q` terms each: index `k` is `i · q + j` for exactly one block `i < n` and one place
  `j < q` in it. A sum over the first `m + n` naturals is the sum of the first `m` terms plus the sum of the `n`
  after them. At 4096 = 4 · 1024 this gives the four quarter sums, added from the left, with or without a zero in front.
-/
import Mathlib.Algebra.BigOperators.Fin
import Mathlib.Data.Fintype.BigOperators
import Mathlib.Logic.Equiv.Fin.Basic

open scoped BigOperators

namespace LibBlockSum

variable {M : Type*} [AddCommMonoid M]

/-- Place `j` of block `i` is below `n · q`. -/
theorem block_lt {n q : Nat} (i : Fin n) (j : Fin q) : i.val * q + j.val < n * q :=
  calc i.val * q + j.val < i.val * q + q := Nat.add_lt_add_left j.isLt _
    _ = (i.val + 1) * q := (Nat.succ_mul _ _).symm
    _ ≤ n * q := Nat.mul_le_mul_right q i.isLt

/-- A sum of `n · q` terms is the sum over `n` blocks of the sums of each block's `q` terms. -/
theorem sum_blocks (n q : Nat) (f : Fin (n * q) → M) :
    ∑ k, f k = ∑ i : Fin n, ∑ j : Fin q, f ⟨i.val * q + j.val, block_lt i j⟩ := by
  rw [← Equiv.sum_comp finProdFinEquiv f, Fintype.sum_prod_type]
  refine Finset.sum_congr rfl fun i _ => Finset.sum_congr rfl fun j _ => congrArg f (Fin.ext ?_)
  show j.val + q * i.val = i.val * q + j.val
  rw [Nat.mul_comm, Nat.add_comm]

/-- A sum of `m + n` terms is the sum of the first `m` plus the sum of the last `n`. -/
theorem sum_split (m n : Nat) (f : Fin (m + n) → M) :
    ∑ k, f k = ∑ j : Fin m, f ⟨j.val, by omega⟩ + ∑ j : Fin n, f ⟨m + j.val, by omega⟩ :=
  Fin.sum_univ_add f

/-- A sum of 4096 terms is its four quarter sums, added from the left. -/
theorem sum_four_1024' (f : Fin 4096 → M) :
    ∑ k, f k = ((∑ j : Fin 1024, f ⟨j.val, by omega⟩ + ∑ j : Fin 1024, f ⟨1024 + j.val, by omega⟩)
      + ∑ j : Fin 1024, f ⟨2048 + j.val, by omega⟩) + ∑ j : Fin 1024, f ⟨3072 + j.val, by omega⟩ := by
  have h1 : ∑ k, f k = ∑ j : Fin 3072, f ⟨j.val, by omega⟩ + ∑ j : Fin 1024, f ⟨3072 + j.val, by omega⟩ :=
    sum_split 3072 1024 f
  have h2 : ∑ j : Fin 3072, f ⟨j.val, by omega⟩
      = ∑ j : Fin 2048, f ⟨j.val, by omega⟩ + ∑ j : Fin 1024, f ⟨2048 + j.val, by omega⟩ :=
    sum_split 2048 1024 fun k : Fin 3072 => f ⟨k.val, by omega⟩
  have h3 : ∑ j : Fin 2048, f ⟨j.val, by omega⟩
      = ∑ j : Fin 1024, f ⟨j.val, by omega⟩ + ∑ j : Fin 1024, f ⟨1024 + j.val, by omega⟩ :=
    sum_split 1024 1024 fun k : Fin 2048 => f ⟨k.val, by omega⟩
  rw [h1, h2, h3]

/-- The same with a zero in front, as an accumulation that starts from zero adds them. -/
theorem sum_four_1024 (f : Fin 4096 → M) :
    ∑ k, f k = (((0 + ∑ j : Fin 1024, f ⟨j.val, by omega⟩) + ∑ j : Fin 1024, f ⟨1024 + j.val, by omega⟩)
      + ∑ j : Fin 1024, f ⟨2048 + j.val, by omega⟩) + ∑ j : Fin 1024, f ⟨3072 + j.val, by omega⟩ := by
  rw [zero_add]
  exact sum_four_1024' f

end LibBlockSum
-- ==== Proof.OneHot.lean ====
/-
  One-hot rows against a weight row, over the extended reals.

  The one-hot row of a token `w` has a 1 in the column whose number is `w` and 0 elsewhere. Its inner product with a
  weight row of 50257 columns is a sum of 50257 terms. Cut into 99 tiles of 512 columns, the last tile running 431
  columns past the end into zeros, the same inner product is the sum of the 99 tile sums: the extra 431 terms are
  products with 0, and a finite sum of extended reals may be regrouped freely (addition there is commutative and
  associative, with no side condition).
-/
import Idealize.ShloMosaic.PureOps.Ideal
import proofs.«104713_j28930899705943_1_alg».proof.Proof.LibBlockSum

noncomputable section

open scoped BigOperators

namespace Cert.OneHot

open Idealize.ShloMosaic

/-- An entry of a one-hot row: 1 where the token is the column's number, 0 elsewhere. -/
def hot (a b : BitVec 32) : EReal := if a = b then 1 else 0

/-- The one-bit comparison word: 1 where the two words are equal. -/
theorem cmpi_eq (a b : BitVec 32) : IntOp.cmpi .eq a b = if a = b then 1#1 else 0#1 := by
  unfold IntOp.cmpi
  by_cases h : a = b
  · subst h; simp
  · rw [if_neg h, beq_eq_false_iff_ne.mpr h]; rfl

/-- The comparison bit widened to 32 bits and read as a signed integer is the one-hot entry. -/
theorem hot_signed (a b : BitVec 32) :
    FloatOps.sitofp (F := Ideal) .f32 ((IntOp.cmpi .eq a b).setWidth 32) = hot a b := by
  show ((((IntOp.cmpi .eq a b).setWidth 32).toInt : ℝ) : EReal) = hot a b
  rw [cmpi_eq]; unfold hot
  by_cases h : a = b
  · rw [if_pos h, if_pos h]
    have e : ((1#1 : BitVec 1).setWidth 32).toInt = 1 := by decide
    rw [e]; simp
  · rw [if_neg h, if_neg h]
    have e : ((0#1 : BitVec 1).setWidth 32).toInt = 0 := by decide
    rw [e]; simp

/-- The comparison bit read as an unsigned integer is the one-hot entry. -/
theorem hot_unsigned (a b : BitVec 32) :
    FloatOps.uitofp (F := Ideal) .f32 (IntOp.cmpi .eq a b) = hot a b := by
  show (((IntOp.cmpi .eq a b).toNat : ℝ) : EReal) = hot a b
  rw [cmpi_eq]; unfold hot
  by_cases h : a = b
  · rw [if_pos h, if_pos h]
    have e : (1#1 : BitVec 1).toNat = 1 := by decide
    rw [e]; simp
  · rw [if_neg h, if_neg h]
    have e : (0#1 : BitVec 1).toNat = 0 := by decide
    rw [e]; simp

/-- The inner product of token `w`'s one-hot row with a weight row over the 50257 columns. -/
def vocabSum (w : BitVec 32) (row : Fin 50257 → EReal) : EReal :=
  ∑ k : Fin 50257, hot w (BitVec.ofNat 32 k.val) * row k

/-- A weight row with zeros behind it. -/
def padRow (row : Fin 50257 → EReal) (v : ℕ) : EReal := if h : v < 50257 then row ⟨v, h⟩ else 0

/-- What tile `j` of 512 columns contributes to the inner product with a row `f` given at every column number. -/
def tileSum (w : BitVec 32) (f : ℕ → EReal) (j : ℕ) : EReal :=
  ∑ k : Fin 512, hot w (BitVec.ofNat 32 (j * 512 + k.val)) * f (j * 512 + k.val)

/-- The 99 tile sums over the padded row add up to the inner product over the 50257 columns. -/
theorem tiles_eq (w : BitVec 32) (row : Fin 50257 → EReal) :
    ∑ j ∈ Finset.range 99, tileSum w (padRow row) j = vocabSum w row := by
  rw [Finset.sum_range]
  have h1 := LibBlockSum.sum_blocks 99 512
    (fun k : Fin (99 * 512) => hot w (BitVec.ofNat 32 k.val) * padRow row k.val)
  have h2 := LibBlockSum.sum_split 50257 431
    (fun k : Fin (50257 + 431) => hot w (BitVec.ofNat 32 k.val) * padRow row k.val)
  unfold tileSum vocabSum
  refine h1.symm.trans (h2.trans ?_)
  have hz : ∑ j : Fin 431, hot w (BitVec.ofNat 32 (50257 + j.val)) * padRow row (50257 + j.val) = 0 :=
    Finset.sum_eq_zero fun j _ => by
      unfold padRow
      rw [dif_neg (by omega), mul_zero]
  have hm : ∑ j : Fin 50257, hot w (BitVec.ofNat 32 j.val) * padRow row j.val
      = ∑ k : Fin 50257, hot w (BitVec.ofNat 32 k.val) * row k :=
    Finset.sum_congr rfl fun j _ => by
      unfold padRow
      rw [dif_pos j.isLt]
  exact (congrArg₂ (· + ·) hm hz).trans (add_zero _)

end Cert.OneHot

end
-- ==== Proof.Payload.lean ====
/-
  The body's arithmetic at one entry of the output block.

  At grid point (·, v) the body builds the one-hot tile H[p, k] = 1 where row p's token is the column number v·512 + k,
  multiplies it into the transposed weight tile, and adds the product to the block it finds. Read at the extended
  reals, where the roundings to bf16 are the identity, entry (p, q) of what it stores is

      acc[p, q] + Σ_{k < 512} H[p, k] · w[q, k].
-/
import proofs.«104713_j28930899705943_1_alg».proof.Proof.Gen.KernelIdeal.Skeleton
import proofs.«104713_j28930899705943_1_alg».proof.Proof.LibProductAt
import proofs.«104713_j28930899705943_1_alg».proof.Proof.OneHot
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen Cert.ProductAt Cert.OneHot

/-- The one-hot tile at (p, k): the comparison of row p's token with the column number k + off. -/
theorem hotTile_at (tok : IVec S2048x1 32) (off : BitVec 32) (p : Nat) (hp : p < 2048) (k : Nat) (hk : k < 512) :
    (truncf .bf16 (sitofp .f32 (extui 32 (cmpi .eq
        (broadcastTo S2048x512 (shapeCast S2048x1 tok shapeCasts_S2048x1_S2048x1) broadcasts_S2048x1_S2048x512)
        (addi (iota .tc S2048x512 32 [1] iota_S2048x512_d1_w32) (broadcast S2048x512 off))) natLt_1_32))
      bitsLt_bf16_f32 : FVec Ideal S2048x512 .bf16) (at2 p hp k hk)
      = hot (tok (at2 p hp 0 Nat.one_pos)) (BitVec.ofNat 32 k + off) := by
  have e1 : broadcastTo S2048x512 (shapeCast S2048x1 tok shapeCasts_S2048x1_S2048x1) broadcasts_S2048x1_S2048x512
      (at2 p hp k hk) = tok (at2 p hp 0 Nat.one_pos) := by
    rw [shapeCast_self]
    exact broadcastTo_apply tok broadcasts_S2048x1_S2048x512 (at2 p hp k hk) (at2 p hp 0 Nat.one_pos) (fun a => match a with
      | ⟨0, _⟩ => by show p = if (2048 : Nat) = 1 then 0 else p; rw [if_neg (by decide)]
      | ⟨1, _⟩ => by show 0 = if (1 : Nat) = 1 then 0 else _; rw [if_pos rfl])
  have e2 : iota .tc S2048x512 32 [1] iota_S2048x512_d1_w32 (at2 p hp k hk) = BitVec.ofNat 32 k :=
    iota_single_apply .tc S2048x512 32 1 iota_S2048x512_d1_w32 (at2 p hp k hk)
  show FloatOps.sitofp (F := Ideal) .f32 ((IntOp.cmpi .eq
      (broadcastTo S2048x512 (shapeCast S2048x1 tok shapeCasts_S2048x1_S2048x1) broadcasts_S2048x1_S2048x512 (at2 p hp k hk))
      (iota .tc S2048x512 32 [1] iota_S2048x512_d1_w32 (at2 p hp k hk) + off)).setWidth 32) = _
  rw [e1, e2]
  exact hot_signed _ _

/-- The transposed weight tile at (k, q) is the weight tile at (q, k). -/
theorem weightT_at (w : Vec Ideal S1024x512 .f32) (k : Nat) (hk : k < 512) (q : Nat) (hq : q < 1024) :
    (transpose S512x1024 [1, 0] (truncf .bf16 (shapeCast S1024x512 w shapeCasts_S1024x512_S1024x512) bitsLt_bf16_f32 : FVec Ideal S1024x512 .bf16)
      transposes_S1024x512_p1_0_S512x1024) (at2 k hk q hq) = w (at2 q hq k hk) := by
  rw [shapeCast_self]
  exact transpose_apply [1, 0] _ transposes_S1024x512_p1_0_S512x1024 (at2 k hk q hq) (at2 q hq k hk) (fun b => match b with
    | ⟨0, _⟩ => rfl
    | ⟨1, _⟩ => rfl)

theorem dot_row (j : S2048x1024.Idx) (q : (dot_S2048x512_S512x1024_S2048x1024_1_0_0_1_n_n).contr.Idx) :
    ((dot_S2048x512_S512x1024_S2048x1024_1_0_0_1_n_n).lhsIdx j q 0).val = (j 0).val := by
  unfold DotDims.lhsIdx
  rw [dif_neg (show ¬(0 : Fin S2048x512.rank) ∈ (dot_S2048x512_S512x1024_S2048x1024_1_0_0_1_n_n).lhsBatch by decide),
    dif_pos (show (0 : Fin S2048x512.rank) ∈ (dot_S2048x512_S512x1024_S2048x1024_1_0_0_1_n_n).lhsNonContracting by decide)]
  rfl

theorem dot_col (j : S2048x1024.Idx) (q : (dot_S2048x512_S512x1024_S2048x1024_1_0_0_1_n_n).contr.Idx) :
    ((dot_S2048x512_S512x1024_S2048x1024_1_0_0_1_n_n).rhsIdx j q 1).val = (j 1).val := by
  unfold DotDims.rhsIdx
  rw [dif_neg (show ¬(1 : Fin S512x1024.rank) ∈ (dot_S2048x512_S512x1024_S2048x1024_1_0_0_1_n_n).rhsBatch by decide),
    dif_pos (show (1 : Fin S512x1024.rank) ∈ (dot_S2048x512_S512x1024_S2048x1024_1_0_0_1_n_n).rhsNonContracting by decide)]
  rfl

/-- Column number k of vocabulary tile v, as the body computes it in 32-bit words. -/
theorem column_word (v k : Nat) :
    BitVec.ofNat 32 k + Scalar.muli (BitVec.ofNat 32 v) 512#32 = BitVec.ofNat 32 (v * 512 + k) := by
  show BitVec.ofNat 32 k + BitVec.ofNat 32 v * BitVec.ofNat 32 512 = _
  rw [← BitVec.ofNat_mul, ← BitVec.ofNat_add, Nat.add_comm]

/-- THE PAYLOAD AT AN ENTRY: what the block held there plus this tile's share of the one-hot inner product. -/
theorem pay_at (i : grid0.Coords) (x0 : Vec Ideal S2048x1 .i32) (x1 : Vec Ideal S1024x512 .f32) (acc : Vec Ideal S2048x1024 .f32)
    (p : Nat) (hp : p < 2048) (q : Nat) (hq : q < 1024) :
    k0_pay2 (F := Ideal) i x0 x1 acc (at2 p hp q hq)
      = acc (at2 p hp q hq) + ∑ k : Fin 512, hot (x0 (at2 p hp 0 Nat.one_pos)) (BitVec.ofNat 32 ((i 1).val * 512 + k.val))
          * x1 (at2 q hq k.val k.isLt) := by
  unfold k0_pay2
  refine (addf_apply _ _ _).trans ?_
  refine congrArg₂ (· + ·) (congrFun (shapeCast_self acc _) _) ?_
  refine (Ideal.matmul_constant_zero_apply dot_S2048x512_S512x1024_S2048x1024_1_0_0_1_n_n none _ _ _).trans ?_
  refine (product_sum_eq dot_S2048x512_S512x1024_S2048x1024_1_0_0_1_n_n rfl rfl rfl rfl dot_row dot_col _ _ _).trans ?_
  refine Finset.sum_congr rfl fun k _ => ?_
  refine congrArg₂ (· * ·) ((hotTile_at x0 _ p hp k.val k.isLt).trans ?_) (weightT_at x1 k.val k.isLt q hq)
  rw [column_word]

end Cert.KernelIdeal.Payload

end
-- ==== Proof.Arrays.lean ====
/-
  The two arrays the kernel streams, as the region finds them, and the blocks the grid cuts from them.

  Before the kernel runs, the host lays the tokens [2, 2048] out as a column [4096, 1] — row b·2048 + s holds token
  (b, s) — and appends 431 zero columns to the weights [1024, 50257], which makes 99 tiles of 512 columns. Grid point
  t = (t / 99, t % 99) reads the 2048 token rows from (t / 99)·2048 on, and weight columns (t % 99)·512 to
  (t % 99)·512 + 511 of all 1024 weight rows.
-/
import proofs.«104713_j28930899705943_1_alg».proof.Proof.Gen.KernelIdeal.Frame
import proofs.«104713_j28930899705943_1_alg».proof.Proof.LibProductAt
import proofs.«104713_j28930899705943_1_alg».proof.Proof.OneHot
import Idealize.ShloMosaic.Lib.Pipeline.Value
import Idealize.ShloMosaic.Lib.StableHlo.Run
import Idealize.ShloMosaic.Lib.KernelVsHost
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Arrays

open Cert.KernelIdeal Cert.KernelIdeal.Gen Cert.ProductAt Cert.OneHot

variable {F : FTy → Type} [FloatOps F]
variable (m : (ℓ : Loc nD τ sig) → Buf (Elt F) ℓ)

/-- The token column is the token array recast twice: [2, 2048] to [4096] to [4096, 1]. -/
theorem tokens_eq (c : Dev nD) : (V m c main_v1 : S4096x1.Idx → BitVec 32)
    = shapeCast S4096x1 (shapeCast S4096 (m ((c : Thread nD τ).loc main_arg0)) shapeCasts_S2x2048_S4096) shapeCasts_S4096_S4096x1 := by
  dsimp only [Gen.V, Gen.V0]
  simp only [Gen.hostOps0, Gen.hostOps0_1, List.flatten_cons, List.flatten_nil, List.append_nil, List.cons_append,
    List.nil_append]
  after_results
  rfl

/-- Row b·2048 + s of the token column holds token (b, s). -/
theorem tokens_at (c : Dev nD) (b : Nat) (hb : b < 2) (s : Nat) (hs : s < 2048) (hr : b * 2048 + s < 4096) :
    (V m c main_v1 : S4096x1.Idx → BitVec 32) (at2 (b * 2048 + s) hr 0 Nat.one_pos)
      = (m ((c : Thread nD τ).loc main_arg0) : S2x2048.Idx → BitVec 32) (at2 b hb s hs) := by
  refine (congrFun (tokens_eq m c) _).trans ?_
  refine (shapeCast_apply _ shapeCasts_S4096_S4096x1 _ (ix1 ⟨b * 2048 + s, hr⟩) ?_).trans ?_
  · rw [Shape.rowMajor_val_one, Shape.rowMajor_val_two]
    show b * 2048 + s = (b * 2048 + s) * 1 + 0
    omega
  refine shapeCast_apply _ shapeCasts_S2x2048_S4096 _ (at2 b hb s hs) ?_
  rw [Shape.rowMajor_val_two, Shape.rowMajor_val_one]
  rfl

/-- The padded weights are the weights with the host's zero behind every row. -/
theorem weights_eq (c : Dev nD) : (V m c main_v2 : S1024x50688.Idx → F .f32)
    = pad S1024x50688 ![0, 0] ![0, 431] ![0, 0] (m ((c : Thread nD τ).loc main_arg1)) (sitofp .f32 (constantI S_ 32 0#32))
        pads_S1024x50257_S1024x50688_000_04310 h_S_ := by
  dsimp only [Gen.V, Gen.V0]
  simp only [Gen.hostOps0, Gen.hostOps0_1, List.flatten_cons, List.flatten_nil, List.append_nil, List.cons_append,
    List.nil_append]
  after_results
  rfl

/-- Where each window's block sits at point t, and the point's vocabulary-tile coordinate. -/
theorem idx_facts : ∀ t : Fin cfg0.N, win0_0.index t (0 : Fin 2) = t.val / 99 ∧ win0_0.index t (1 : Fin 2) = 0
    ∧ win0_1.index t (0 : Fin 2) = 0 ∧ win0_1.index t (1 : Fin 2) = t.val % 99
    ∧ win0_2.index t (0 : Fin 2) = t.val / 99 ∧ win0_2.index t (1 : Fin 2) = 0
    ∧ ((grid0.coords t) 1).val = t.val % 99 :=
  (by decide +kernel : ∀ t : Fin grid0.N, _)

/-- Point t's token block is rows (t / 99)·2048 … of the token column. -/
theorem tokens_block (c : Dev nD) (t : Fin cfg0.N) (p : Nat) (hp : p < 2048) (hr : t.val / 99 * 2048 + p < 4096) :
    (iblk m c 0 t : S2048x1.Idx → BitVec 32) (at2 p hp 0 Nat.one_pos)
      = (V m c main_v1 : S4096x1.Idx → BitVec 32) (at2 (t.val / 99 * 2048 + p) hr 0 Nat.one_pos) := by
  obtain ⟨e0, e1, -⟩ := idx_facts t
  unfold iblk
  rw [View.read_apply]
  show (V m c main_v1 : S4096x1.Idx → BitVec 32) _ = (V m c main_v1 : S4096x1.Idx → BitVec 32) _
  refine congrArg (V m c main_v1 : S4096x1.Idx → BitVec 32) (funext fun a => Fin.ext ?_)
  match a with
  | ⟨0, _⟩ => show win0_0.index t (0 : Fin 2) * 2048 + 1 * p = t.val / 99 * 2048 + p; rw [e0]; omega
  | ⟨1, _⟩ => show win0_0.index t (1 : Fin 2) * 1 + 1 * 0 = 0; rw [e1]

/-- Point t's weight block is columns (t % 99)·512 … of the padded weights. -/
theorem weights_block (c : Dev nD) (t : Fin cfg0.N) (q : Nat) (hq : q < 1024) (k : Nat) (hk : k < 512)
    (hv : t.val % 99 * 512 + k < 50688) :
    (iblk m c 1 t : S1024x512.Idx → F .f32) (at2 q hq k hk)
      = (V m c main_v2 : S1024x50688.Idx → F .f32) (at2 q hq (t.val % 99 * 512 + k) hv) := by
  obtain ⟨-, -, e2, e3, -⟩ := idx_facts t
  unfold iblk
  rw [View.read_apply]
  show (V m c main_v2 : S1024x50688.Idx → F .f32) _ = (V m c main_v2 : S1024x50688.Idx → F .f32) _
  refine congrArg (V m c main_v2 : S1024x50688.Idx → F .f32) (funext fun a => Fin.ext ?_)
  match a with
  | ⟨0, _⟩ => show win0_1.index t (0 : Fin 2) * 1024 + 1 * q = q; rw [e2]; omega
  | ⟨1, _⟩ => show win0_1.index t (1 : Fin 2) * 512 + 1 * k = t.val % 99 * 512 + k; rw [e3]; omega

end Cert.KernelIdeal.Arrays

namespace Cert.KernelIdeal.Arrays

open Cert.KernelIdeal Cert.KernelIdeal.Gen Cert.ProductAt Cert.OneHot

variable (m : (ℓ : Loc nD τ sig) → Buf (Elt Ideal) ℓ)

/-- Row q of the padded weights, column by column: the weight row, then zeros. -/
theorem weights_at (c : Dev nD) (q : Nat) (hq : q < 1024) (v : Nat) (hv : v < 50688) :
    (V m c main_v2 : S1024x50688.Idx → EReal) (at2 q hq v hv)
      = padRow (fun k => (m ((c : Thread nD τ).loc main_arg1) : S1024x50257.Idx → EReal) (at2 q hq k.val k.isLt)) v := by
  refine (congrFun (weights_eq m c) _).trans ?_
  unfold padRow
  by_cases h : v < 50257
  · rw [dif_pos h]
    exact pad_apply_of_inside _ _ _ _ _ pads_S1024x50257_S1024x50688_000_04310 h_S_ (at2 q hq v hv) (at2 q hq v h)
      (fun a => match a with
        | ⟨0, _⟩ => by show q = 0 + q * (0 + 1); omega
        | ⟨1, _⟩ => by show v = 0 + v * (0 + 1); omega)
  · rw [dif_neg h]
    refine (pad_apply_of_not_inside _ _ _ _ _ pads_S1024x50257_S1024x50688_000_04310 h_S_ (at2 q hq v hv) 1 ?_).trans ?_
    · show ¬(0 ≤ v ∧ (v - 0) % (0 + 1) = 0 ∧ (v - 0) / (0 + 1) < 50257)
      omega
    · show (((0#32 : BitVec 32).toInt : ℝ) : EReal) = 0
      simp

end Cert.KernelIdeal.Arrays

end
-- ==== Proof.Accumulate.lean ====
/-
  The output block as the running sum over vocabulary tiles, and the array the kernel leaves.

  A row block of 2048 output rows stays in place while the grid walks the 99 vocabulary tiles: the first tile
  starts it from zero, every later tile adds its share, and after the 99th tile the block is written back. So after
  tile v the block's entry (p, q) is the sum of the first v + 1 tile sums of row p's one-hot row against weight row q,
  by induction on the grid point, and the two blocks written back fill the array [4096, 1024].
-/
import proofs.«104713_j28930899705943_1_alg».proof.Proof.Gen.KernelIdeal.Frame
import proofs.«104713_j28930899705943_1_alg».proof.Proof.Pieces
import proofs.«104713_j28930899705943_1_alg».proof.Proof.Payload
import proofs.«104713_j28930899705943_1_alg».proof.Proof.Arrays
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Accumulate

open Cert.KernelIdeal Cert.KernelIdeal.Gen Cert.ProductAt Cert.OneHot
open Cert.KernelIdeal.Pieces Cert.KernelIdeal.Payload Cert.KernelIdeal.Arrays

variable (m : (ℓ : Loc nD τ sig) → Buf (Elt Ideal) ℓ)

/-- The token in row r of the token column (the zero word past its end). -/
def tokAt (c : Dev nD) (r : Nat) : BitVec 32 :=
  if h : r < 4096 then (V m c main_v1 : S4096x1.Idx → BitVec 32) (at2 r h 0 Nat.one_pos) else 0

/-- Row q of the padded weights at column v (zero outside the array). -/
def rowAt (c : Dev nD) (q v : Nat) : EReal :=
  if h : q < 1024 ∧ v < 50688 then (V m c main_v2 : S1024x50688.Idx → EReal) (at2 q h.1 v h.2) else 0

/-- The zero block the first tile stores. -/
theorem zero_block (j : S2048x1024.Idx) : k0_pay1 (F := Ideal) j = 0 := by
  show Ideal.ofBits .f32 0x00000000#32 = 0
  exact Ideal.ofBits_zero_f32

/-- ONE GRID POINT: over a block `acc`, the body at point t leaves `acc` plus tile (t % 99)'s sum. -/
theorem step (c : Dev nD) (t : Fin cfg0.N) (acc : Vec Ideal S2048x1024 .f32) (p : Nat) (hp : p < 2048) (q : Nat) (hq : q < 1024) :
    k0_pay2 (F := Ideal) (grid0.coords t) (iblk m c 0 t) (iblk m c 1 t) acc (at2 p hp q hq)
      = acc (at2 p hp q hq) + tileSum (tokAt m c (t.val / 99 * 2048 + p)) (rowAt m c q) (t.val % 99) := by
  have hN : t.val < 198 := lt_of_lt_of_eq t.isLt N_0
  obtain ⟨-, -, -, -, -, -, e6⟩ := idx_facts t
  refine (pay_at (grid0.coords t) (iblk m c 0 t) (iblk m c 1 t) acc p hp q hq).trans ?_
  refine congrArg (acc (at2 p hp q hq) + ·) ?_
  unfold tileSum
  refine Finset.sum_congr rfl fun k _ => ?_
  have hk := k.isLt
  have hr : t.val / 99 * 2048 + p < 4096 := by omega
  have hv : t.val % 99 * 512 + k.val < 50688 := by omega
  refine congrArg₂ (· * ·) (congrArg₂ hot ((tokens_block m c t p hp hr).trans ?_) (by rw [e6]))
    ((weights_block m c t q hq k.val k.isLt hv).trans ?_)
  · unfold tokAt; rw [dif_pos hr]
  · unfold rowAt; rw [dif_pos ⟨hq, hv⟩]

/-- At the first tile of a row block the point leaves tile 0's sum. -/
theorem outs_first (c : Dev nD) (t : Fin cfg0.N) (h0 : t.val % 99 = 0) (p : Nat) (hp : p < 2048) (q : Nat) (hq : q < 1024) :
    outsAt0 (F := Ideal) m c t.val t.isLt (at2 p hp q hq)
      = tileSum (tokAt m c (t.val / 99 * 2048 + p)) (rowAt m c q) 0 := by
  refine (congrFun (outsAt0_A m c t h0) _).trans ?_
  refine (congrFun (out_first c (grid0.coords t) (ms0_0 t) (hs0_0 t) (ms0_1 t) (hs0_1 t) (ms0_2 t) (hs0_2 t)
    ((hcond0_0 t).mpr h0) (iblk m c 0 t) (iblk m c 1 t)) _).trans ?_
  refine (step m c t (k0_pay1 (F := Ideal)) p hp q hq).trans ?_
  rw [zero_block, zero_add, h0]

/-- At a later tile it leaves what the point before left plus this tile's sum. -/
theorem outs_later (c : Dev nD) (t : Fin cfg0.N) (h0 : ¬t.val % 99 = 0) (p : Nat) (hp : p < 2048) (q : Nat) (hq : q < 1024) :
    outsAt0 (F := Ideal) m c t.val t.isLt (at2 p hp q hq)
      = outsAt0 (F := Ideal) m c (t.val - 1) (Nat.lt_of_le_of_lt (Nat.sub_le _ _) t.isLt) (at2 p hp q hq)
        + tileSum (tokAt m c (t.val / 99 * 2048 + p)) (rowAt m c q) (t.val % 99) := by
  refine (congrFun (outsAt0_B m c t h0) _).trans ?_
  refine (congrFun (out_later c (grid0.coords t) (ms0_0 t) (hs0_0 t) (ms0_1 t) (hs0_1 t) (ms0_2 t) (hs0_2 t)
    (fun h => h0 ((hcond0_0 t).mp h)) (iblk m c 0 t) (iblk m c 1 t)
    (outsAt0 m c (t.val - 1) (Nat.lt_of_le_of_lt (Nat.sub_le _ _) t.isLt))) _).trans ?_
  exact step m c t _ p hp q hq

/-- THE RUNNING SUM: after point n the block's entry (p, q) is the sum of tiles 0 … n % 99. -/
theorem outsAt_eq (c : Dev nD) (n : Nat) : ∀ (hn : n < cfg0.N) (p : Nat) (hp : p < 2048) (q : Nat) (hq : q < 1024),
    outsAt0 (F := Ideal) m c n hn (at2 p hp q hq)
      = ∑ j ∈ Finset.range (n % 99 + 1), tileSum (tokAt m c (n / 99 * 2048 + p)) (rowAt m c q) j := by
  induction n with
  | zero =>
    intro hn p hp q hq
    refine (outs_first m c ⟨0, hn⟩ rfl p hp q hq).trans ?_
    show tileSum (tokAt m c (0 / 99 * 2048 + p)) (rowAt m c q) 0 = ∑ j ∈ Finset.range 1, _
    rw [Finset.sum_range_one]
  | succ n ih =>
    intro hn p hp q hq
    have hN : n + 1 < 198 := lt_of_lt_of_eq hn N_0
    by_cases h0 : (n + 1) % 99 = 0
    · refine (outs_first m c ⟨n + 1, hn⟩ h0 p hp q hq).trans ?_
      show tileSum (tokAt m c ((n + 1) / 99 * 2048 + p)) (rowAt m c q) 0 = _
      rw [h0, Finset.sum_range_one]
    · refine (outs_later m c ⟨n + 1, hn⟩ h0 p hp q hq).trans ?_
      show outsAt0 (F := Ideal) m c n (Nat.lt_of_succ_lt hn) (at2 p hp q hq)
        + tileSum (tokAt m c ((n + 1) / 99 * 2048 + p)) (rowAt m c q) ((n + 1) % 99) = _
      have e1 : (n + 1) / 99 = n / 99 := by omega
      have e2 : (n + 1) % 99 = n % 99 + 1 := by omega
      rw [ih (Nat.lt_of_succ_lt hn) p hp q hq, e1, e2]
      exact (Finset.sum_range_succ _ _).symm

/-- What the kernel's array [4096, 1024] ends holding: entry (r, q) is the sum of all 99 tile sums. -/
def kernelArray (c : Dev nD) : S4096x1024.Idx → EReal :=
  fun i => ∑ j ∈ Finset.range 99, tileSum (tokAt m c (i 0).val) (rowAt m c (i 1).val) j

/-- After the last tile of a row block, the block is that part of the array. -/
theorem last_tile (c : Dev nD) (t : Fin cfg0.N) (h98 : t.val % 99 = 98) (y : S2048x1024.Idx) (i : S4096x1024.Idx)
    (hi0 : (i 0).val = t.val / 99 * 2048 + (y 0).val) (hi1 : (i 1).val = (y 1).val) :
    outsAt0 (F := Ideal) m c t.val t.isLt y = kernelArray m c i := by
  refine (congrArg (outsAt0 (F := Ideal) m c t.val t.isLt) (eq_at2 y)).trans ?_
  refine (outsAt_eq m c t.val t.isLt (y 0).val (idx2_lt0 y) (y 1).val (idx2_lt1 y)).trans ?_
  unfold kernelArray
  rw [h98, hi0, hi1]

/-- WHAT A WRITE-BACK WRITES: the point's block of the final array. -/
theorem flushed_eq (c : Dev nD) (t : Fin cfg0.N) (hf : (cfg0.win 2).flush t = true) :
    (dats m 0 c).flushed 2 t = ((cfg0.win 2).blk t).view.read (Elt Ideal) (kernelArray m c) := by
  have h98 : t.val % 99 = 98 := (flush0_2 t).mp hf
  obtain ⟨-, -, -, -, e4, e5, -⟩ := idx_facts t
  show (cfg0.win 2).cut (grid0.coords t) ((dats m 0 c).after 2 t) = _
  rw [after0_2]
  funext y
  refine last_tile m c t h98 y (((cfg0.win 2).blk t).view.emb y) ?_ ?_
  · show win0_2.index t (0 : Fin 2) * 2048 + 1 * (y 0).val = _
    rw [e4]; omega
  · show win0_2.index t (1 : Fin 2) * 1024 + 1 * (y 1).val = _
    rw [e5]; omega

/-- The two blocks written back fill the array. -/
theorem covered (i : S4096x1024.Idx) :
    ∃ t : Fin cfg0.N, (cfg0.win 2).flush t = true ∧ i ∈ ((cfg0.win 2).blk t).view.set := by
  have h0 : (i 0).val < 4096 := idx2_lt0 i
  have h1 : (i 1).val < 1024 := idx2_lt1 i
  obtain ⟨t, ht⟩ : ∃ t : Fin cfg0.N, t.val = (i 0).val / 2048 * 99 + 98 :=
    ⟨⟨(i 0).val / 2048 * 99 + 98, by rw [show cfg0.N = 198 from N_0]; omega⟩, rfl⟩
  obtain ⟨-, -, -, -, e4, e5, -⟩ := idx_facts t
  refine ⟨t, (flush0_2 t).mpr (by omega), ?_⟩
  show i ∈ ((View.whole main_v3).slice (win0_2.rect t)).set
  rw [View.set_slice_whole, Rect.mem_set_unit]
  intro a
  match a with
  | ⟨0, _⟩ =>
    show win0_2.index t (0 : Fin 2) * 2048 ≤ (i 0).val ∧ (i 0).val < win0_2.index t (0 : Fin 2) * 2048 + 2048
    rw [e4]; omega
  | ⟨1, _⟩ =>
    show win0_2.index t (1 : Fin 2) * 1024 ≤ (i 1).val ∧ (i 1).val < win0_2.index t (1 : Fin 2) * 1024 + 1024
    rw [e5]; omega

/-- THE ARRAY after the run. -/
theorem final (c : Dev nD) : (dats m 0 c).arrAt 2 cfg0.N = kernelArray m c :=
  (dats m 0 c).arrAt_eq_of_cover 2 (kernelArray m c) (flushed_eq m c) covered

end Cert.KernelIdeal.Accumulate

end
-- ==== Proof.Spec.lean ====
/-
  The embedding lookup both programs compute, entry by entry.

  Entry (b, s, e) of the result is the inner product, over the 50257 vocabulary columns, of the one-hot row of token
  (b, s) with row e of the weights: Σ_v [token(b, s) = v] · W[e, v]. Nothing is assumed of the token: a word that is no
  column's number has the zero row, and the entry is 0.
-/
import proofs.«104713_j28930899705943_1_alg».proof.Proof.LibProductAt
import proofs.«104713_j28930899705943_1_alg».proof.Proof.OneHot

noncomputable section

namespace Cert.Spec

open Idealize.ShloMosaic Cert.ProductAt Cert.OneHot

/-- The looked-up embeddings [2, 2048, 1024] of tokens [2, 2048] in weights [1024, 50257]. -/
def embed (tok : (⟨2, ![2, 2048]⟩ : Shape).Idx → BitVec 32) (W : (⟨2, ![1024, 50257]⟩ : Shape).Idx → EReal) :
    (⟨3, ![2, 2048, 1024]⟩ : Shape).Idx → EReal :=
  fun i => vocabSum (tok (at2 (i 0).val (i 0).isLt (i 1).val (i 1).isLt))
    (fun k => W (at2 (i 2).val (i 2).isLt k.val k.isLt))

end Cert.Spec

end
-- ==== Proof.Kernel.lean ====
/-
  The kernel's result is the embedding lookup.

  After the kernel the host recasts its array [4096, 1024] to [2, 2048, 1024]: entry (b, s, e) is the array's entry
  (b·2048 + s, e), the sum of the 99 tile sums of token (b, s)'s one-hot row against the padded weight row e — which is
  the inner product over the 50257 vocabulary columns.
-/
import proofs.«104713_j28930899705943_1_alg».proof.Proof.Accumulate
import proofs.«104713_j28930899705943_1_alg».proof.Proof.Spec
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Lookup

open Cert.KernelIdeal Cert.KernelIdeal.Gen Cert.ProductAt Cert.OneHot Cert.Spec
open Cert.KernelIdeal.Arrays Cert.KernelIdeal.Accumulate

variable (m : (ℓ : Loc nD τ sig) → Buf (Elt Ideal) ℓ)

/-- Row b·2048 + s of the token column is token (b, s). -/
theorem tokAt_eq (c : Dev nD) (b : Nat) (hb : b < 2) (s : Nat) (hs : s < 2048) :
    tokAt m c (b * 2048 + s) = (m ((c : Thread nD τ).loc main_arg0) : S2x2048.Idx → BitVec 32) (at2 b hb s hs) := by
  have hr : b * 2048 + s < 4096 := by omega
  unfold tokAt
  rw [dif_pos hr]
  exact tokens_at m c b hb s hs hr

/-- Row q of the padded weights is weight row q with zeros behind it. -/
theorem rowAt_eq (c : Dev nD) (q : Nat) (hq : q < 1024) :
    rowAt m c q = padRow (fun k => (m ((c : Thread nD τ).loc main_arg1) : S1024x50257.Idx → EReal) (at2 q hq k.val k.isLt)) := by
  funext v
  unfold rowAt
  by_cases hv : v < 50688
  · rw [dif_pos ⟨hq, hv⟩]
    exact weights_at m c q hq v hv
  · rw [dif_neg (fun h => hv h.2)]
    unfold padRow
    rw [dif_neg (by omega)]

/-- The host operation after the kernel recasts the kernel's array. -/
theorem tail_eq (c : Dev nD) :
    (Pipeline.afterTail₀ cfgs (dats m) 0 (V0 m) [hostOps1] c main_v4 : S2x2048x1024.Idx → EReal)
      = shapeCast S2x2048x1024 (kernelArray m c) shapeCasts_S4096x1024_S2x2048x1024 := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.devRef .tc main_v3)
      = kernelArray m c from (Pipeline.withArrays_arr spec0 launch0.win.arr_inj c _ _ 2).trans (final m c)]
  rfl

/-- THE RESULT: the embedding lookup of the token and weight arguments. -/
theorem result_eq (c : Dev nD) :
    (Pipeline.afterTail₀ cfgs (dats m) 0 (V0 m) [hostOps1] c main_v4 : S2x2048x1024.Idx → EReal)
      = embed (m ((c : Thread nD τ).loc main_arg0)) (m ((c : Thread nD τ).loc main_arg1)) := by
  rw [tail_eq]
  funext i
  have h0 : (i 0).val < 2 := (i 0).isLt
  have h1 : (i 1).val < 2048 := (i 1).isLt
  have h2 : (i 2).val < 1024 := (i 2).isLt
  have hr : (i 0).val * 2048 + (i 1).val < 4096 := by omega
  refine (shapeCast_apply _ shapeCasts_S4096x1024_S2x2048x1024 i (at2 ((i 0).val * 2048 + (i 1).val) hr (i 2).val h2) ?_).trans ?_
  · rw [Shape.rowMajor_val_two, Shape.rowMajor_val_three]
    rfl
  show ∑ j ∈ Finset.range 99, tileSum (tokAt m c ((i 0).val * 2048 + (i 1).val)) (rowAt m c (i 2).val) j = _
  rw [tokAt_eq m c (i 0).val h0 (i 1).val h1, rowAt_eq m c (i 2).val h2]
  exact tiles_eq _ _

/-- THE RUN: every weakly fair execution ends with the result at the embedding lookup and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v4) = embed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Lookup

end
-- ==== Proof.Reference.lean ====
/-
  The reference computes the embedding lookup.

  It compares every token with every column number 0 … 50256, reads the comparison bit as a float, and contracts the
  resulting one-hot array [2, 2048, 50257] with the weights over the vocabulary axis. At the extended reals entry
  (b, s, e) of that contraction is Σ_v [token(b, s) = v] · W[e, v].
-/
import proofs.«104713_j28930899705943_1_alg».proof.Proof.Gen.ReferenceIdeal.Read
import proofs.«104713_j28930899705943_1_alg».proof.Proof.Spec

noncomputable section

open Idealize.ShloMosaic

namespace Cert.ReferenceIdeal.Lookup

open Cert.ReferenceIdeal Cert.ReferenceIdeal.Read Cert.ProductAt Cert.OneHot Cert.Spec

/-- The reference's result, as a function of its two arguments, is the embedding lookup. -/
theorem reference_eq (tok : S2x2048.Idx → BitVec 32) (W : S1024x50257.Idx → EReal) :
    val_main_v1 (F := Ideal) tok W = embed tok W := by
  funext i
  rw [val_main_v1_apply]
  unfold embed vocabSum
  refine Finset.sum_congr rfl fun k _ => ?_
  refine congrArg₂ (· * ·) ?_ ?_
  · rw [val_main_v0_apply, val_main_call0_v4_apply, val_main_call0_v2_apply, val_main_call0_v0_apply,
      val_main_call0_v3_apply, val_main_call0_v1_apply]
    refine (hot_unsigned _ _).trans ?_
    refine congrArg₂ hot (congrArg tok (funext fun a => Fin.ext ?_)) rfl
    match a with
    | ⟨0, _⟩ => rfl
    | ⟨1, _⟩ => rfl
  · refine congrArg W (funext fun a => Fin.ext ?_)
    match a with
    | ⟨0, _⟩ => rfl
    | ⟨1, _⟩ => rfl

end Cert.ReferenceIdeal.Lookup

end
-- ==== Proof.lean ====
/-
  An embedding lookup written as a one-hot matrix product, against jnp's one_hot(tokens) · Wᵀ.

  The kernel lays the tokens [2, 2048] out as a column of 4096 rows and pads the weights [1024, 50257] with 431 zero
  columns to 99 tiles of 512. Its grid is 2 row blocks × 99 vocabulary tiles; at a point it compares each of the block's
  2048 tokens with the tile's 512 column numbers, multiplies the resulting one-hot tile into the transposed weight tile
  on the matrix unit, and adds the product to the output block, which it starts from zero at the first tile and writes
  back after the last. The result is recast to [2, 2048, 1024].

  The reference compares every token with every column number 0 … 50256, and contracts the one-hot array with the weights.

  At the extended reals, where the kernel's roundings to bf16 are the identity, entry (b, s, e) of both results is

      Σ_{v < 50257} [token(b, s) = v] · W[e, v]            (Proof/Spec.lean).

  For the reference that is what its contraction reads (Proof/Reference.lean). For the kernel, the output block after
  tile v holds the sum of the first v + 1 tile sums (Proof/Accumulate.lean, by induction on the grid point, over the
  body's arithmetic at an entry, Proof/Payload.lean); the 99 tile sums over the padded row regroup to the sum over the
  50257 columns, the 431 extra terms being products with zero (Proof/OneHot.lean). Sums of extended reals regroup with
  no side condition, so the weights' finiteness is never used, and nothing is assumed of the tokens: a word that is no
  column's number gives the zero row on both sides.

  The three frames are the generated ones (the reference's is its generated run with the result dropped), and the
  idealization rewrote nothing, so that claim is trivial.
-/
import proofs.«104713_j28930899705943_1_alg».proof.Defs
import proofs.«104713_j28930899705943_1_alg».proof.Proof.Gen.Kernel
import proofs.«104713_j28930899705943_1_alg».proof.Proof.Gen.Kernel.Frame
import proofs.«104713_j28930899705943_1_alg».proof.Proof.Gen.KernelIdeal
import proofs.«104713_j28930899705943_1_alg».proof.Proof.Gen.KernelIdeal.Frame
import proofs.«104713_j28930899705943_1_alg».proof.Proof.Gen.ReferenceIdeal
import proofs.«104713_j28930899705943_1_alg».proof.Proof.Gen.ReferenceIdeal.Run
import proofs.«104713_j28930899705943_1_alg».proof.Proof.Gen.ReferenceIdeal.Read
import proofs.«104713_j28930899705943_1_alg».proof.Proof.Gen.Pre_finite_inputs
import proofs.«104713_j28930899705943_1_alg».proof.Proof.Kernel
import proofs.«104713_j28930899705943_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the embedding lookup of arguments that agree. -/
theorem algebraic : Cert.algebraic_KernelIdeal_ReferenceIdeal := by
  intro m ρ m' ρ' _ hagree
  refine ⟨fun c => Cert.Spec.embed (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Lookup.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.Lookup.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
